-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S256x4096 : Shape := ⟨2, ![256, 4096]⟩
abbrev S256x16 : Shape := ⟨2, ![256, 16]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .bf16⟩
  | .hbm, ⟨8, _⟩ => ⟨S4096x4096, .bf16⟩
  | .hbm, ⟨9, _⟩ => ⟨S8192x4096, .f32⟩
  | .hbm, ⟨10, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x4096, .bf16⟩
  | .local _ .vmem, ⟨6, _⟩ => ⟨S256x4096, .bf16⟩
  | .local _ .vmem, ⟨7, _⟩ => ⟨S1024x512, .bf16⟩
  | .local _ .vmem, ⟨8, _⟩ => ⟨S1024x512, .bf16⟩
  | .local _ .vmem, ⟨9, _⟩ => ⟨S2048x512, .bf16⟩
  | .local _ .vmem, ⟨10, _⟩ => ⟨S2048x512, .bf16⟩
  | .local _ .vmem, ⟨11, _⟩ => ⟨S1x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![8, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x4096_S8192x4096 : S4x2048x4096.ShapeCasts S8192x4096
  shapeCasts_S4096_S1x4096 : S4096.ShapeCasts S1x4096
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S256x16_S16x4096_S256x4096_1_0_0_1_n_n_wf : DotDims.WF S256x16 S16x4096 S256x4096 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Algebra.lean ====
/-
  The arithmetic of a linear layer with a low-rank update, over the extended reals.

  The kernel first fuses the weights, Weff[o,i] = W[o,i] + (Σ_r B[o,r]·A[r,i])·(1/16), and then forms
  Σ_i x[i]·Weff[o,i] + bias[o], the sum over i taken as eight consecutive runs of 512 terms.  The reference
  forms (Σ_i x[i]·W[o,i] + bias[o]) + (Σ_r (Σ_i x[i]·A[r,i])·B[o,r])·(1/16).  The two agree by distributing
  x[i] over the sum that defines Weff[o,i] and exchanging the sums over i and r.  Distributivity fails at the
  infinities of the extended reals, so the identity is proved where every entry is a real number: there both
  sides are images of real expressions, and the identity is one of finite real sums.

  Arrays are read at natural-number coordinates (zero outside the array), so that the sums are over ranges
  of naturals and the blocked sum is re-indexed by arithmetic alone.
-/
import Idealize.ShloMosaic.PureOps.Ideal.Laws
import Idealize.ShloMosaic.Lib.ValueIdx

noncomputable section

namespace Cert.LoRA

open Idealize.ShloMosaic Idealize.ShloMosaic.ValueIdx Finset

/-! ## Arrays at natural coordinates -/

/-- A vector's entry at a natural coordinate; zero outside the vector. -/
def at1 {n0 : ℕ} (X : (⟨1, ![n0]⟩ : Shape).Idx → EReal) (a : ℕ) : EReal :=
  if h : a < n0 then X (ix1 ⟨a, h⟩) else 0

/-- A matrix's entry at natural coordinates; zero outside the matrix. -/
def at2 {n0 n1 : ℕ} (X : (⟨2, ![n0, n1]⟩ : Shape).Idx → EReal) (a b : ℕ) : EReal :=
  if h : a < n0 ∧ b < n1 then X (ix2 ⟨a, h.1⟩ ⟨b, h.2⟩) else 0

/-- A rank-3 array's entry at natural coordinates; zero outside the array. -/
def at3 {n0 n1 n2 : ℕ} (X : (⟨3, ![n0, n1, n2]⟩ : Shape).Idx → EReal) (a b c : ℕ) : EReal :=
  if h : a < n0 ∧ b < n1 ∧ c < n2 then X (ix3 ⟨a, h.1⟩ ⟨b, h.2.1⟩ ⟨c, h.2.2⟩) else 0

theorem at1_ix1 {n0 : ℕ} (X : (⟨1, ![n0]⟩ : Shape).Idx → EReal) (a : Fin n0) : at1 X a.val = X (ix1 a) := by
  unfold at1; rw [dif_pos a.isLt]

theorem at2_ix2 {n0 n1 : ℕ} (X : (⟨2, ![n0, n1]⟩ : Shape).Idx → EReal) (a : Fin n0) (b : Fin n1) :
    at2 X a.val b.val = X (ix2 a b) := by
  unfold at2; rw [dif_pos ⟨a.isLt, b.isLt⟩]

theorem at3_ix3 {n0 n1 n2 : ℕ} (X : (⟨3, ![n0, n1, n2]⟩ : Shape).Idx → EReal) (a : Fin n0) (b : Fin n1) (c : Fin n2) :
    at3 X a.val b.val c.val = X (ix3 a b c) := by
  unfold at3; rw [dif_pos ⟨a.isLt, b.isLt, c.isLt⟩]

theorem at1_idx {n0 : ℕ} (X : (⟨1, ![n0]⟩ : Shape).Idx → EReal) (j : (⟨1, ![n0]⟩ : Shape).Idx) :
    at1 X (j 0).val = X j := by
  unfold at1; rw [dif_pos (show (j 0).val < n0 from (j 0).isLt)]; exact congrArg X (eq_ix1 j).symm

theorem at2_idx {n0 n1 : ℕ} (X : (⟨2, ![n0, n1]⟩ : Shape).Idx → EReal) (j : (⟨2, ![n0, n1]⟩ : Shape).Idx) :
    at2 X (j 0).val (j 1).val = X j := by
  unfold at2; rw [dif_pos (show (j 0).val < n0 ∧ (j 1).val < n1 from ⟨(j 0).isLt, (j 1).isLt⟩)]; exact congrArg X (eq_ix2 j).symm

theorem at3_idx {n0 n1 n2 : ℕ} (X : (⟨3, ![n0, n1, n2]⟩ : Shape).Idx → EReal) (j : (⟨3, ![n0, n1, n2]⟩ : Shape).Idx) :
    at3 X (j 0).val (j 1).val (j 2).val = X j := by
  unfold at3; rw [dif_pos (show (j 0).val < n0 ∧ (j 1).val < n1 ∧ (j 2).val < n2 from ⟨(j 0).isLt, (j 1).isLt, (j 2).isLt⟩)]; exact congrArg X (eq_ix3 j).symm

/-- A sum over the indices below n, as a sum over a range of naturals. -/
theorem sum_fin_eq_range {M : Type} [AddCommMonoid M] (n : ℕ) (f : ℕ → M) : ∑ k : Fin n, f k.val = ∑ k ∈ range n, f k :=
  Fin.sum_univ_eq_sum_range f n

/-- An array whose entries are all real numbers. -/
def AllReal {ι : Type} (X : ι → EReal) : Prop := ∀ j, ∃ r : ℝ, X j = (r : EReal)

theorem at1_real {n0 : ℕ} {X : (⟨1, ![n0]⟩ : Shape).Idx → EReal} (h : AllReal X) (a : ℕ) : ∃ y : ℝ, at1 X a = (y : EReal) := by
  unfold at1; split
  · exact h _
  · exact ⟨0, EReal.coe_zero.symm⟩

theorem at2_real {n0 n1 : ℕ} {X : (⟨2, ![n0, n1]⟩ : Shape).Idx → EReal} (h : AllReal X) (a b : ℕ) :
    ∃ y : ℝ, at2 X a b = (y : EReal) := by
  unfold at2; split
  · exact h _
  · exact ⟨0, EReal.coe_zero.symm⟩

theorem at3_real {n0 n1 n2 : ℕ} {X : (⟨3, ![n0, n1, n2]⟩ : Shape).Idx → EReal} (h : AllReal X) (a b c : ℕ) :
    ∃ y : ℝ, at3 X a b c = (y : EReal) := by
  unfold at3; split
  · exact h _
  · exact ⟨0, EReal.coe_zero.symm⟩

/-! ## Sums -/

/-- A sum taken as n consecutive runs of b terms is the sum of all b·n terms. -/
theorem sum_blocks {M : Type} [AddCommMonoid M] (f : ℕ → M) (b : ℕ) :
    ∀ n : ℕ, ∑ k ∈ range n, ∑ l ∈ range b, f (b * k + l) = ∑ i ∈ range (b * n), f i
  | 0 => by simp
  | n + 1 => by
    rw [Finset.sum_range_succ, sum_blocks f b n, Nat.mul_succ, Finset.sum_range_add]

/-- The image in the extended reals of a finite real sum is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: x distributes over the fused weight and the two sums exchange. -/
theorem real_identity (X W Bm : ℕ → ℝ) (Ar : ℕ → ℕ → ℝ) (β c : ℝ) (n R : ℕ) :
    (∑ i ∈ range n, X i * (W i + (∑ r ∈ range R, Bm r * Ar r i) * c)) + β
      = (∑ i ∈ range n, X i * W i + β) + (∑ r ∈ range R, (∑ i ∈ range n, X i * Ar r i) * Bm r) * c := by
  have h : ∑ i ∈ range n, X i * (W i + (∑ r ∈ range R, Bm r * Ar r i) * c)
      = ∑ i ∈ range n, X i * W i + (∑ r ∈ range R, (∑ i ∈ range n, X i * Ar r i) * Bm r) * c := by
    simp only [mul_add, Finset.sum_add_distrib, Finset.sum_mul, Finset.mul_sum]
    congr 1
    rw [Finset.sum_comm]
    refine Finset.sum_congr rfl fun r _ => Finset.sum_congr rfl fun i _ => ?_
    ring
  rw [h]; ring

/-! ## The two results -/

/-- The scale 1/16 as the programs spell it. -/
abbrev sc : EReal := Ideal.ofBits .f32 0x3D800000#32

theorem sc_real : ∃ c : ℝ, sc = (c : EReal) := by
  refine ⟨1 / 16, ?_⟩
  unfold sc
  simp [Ideal.ofBits, Ideal.ieee, -EReal.coe_mul]; norm_num

/-- The fused weight W + (B·A)/16 at (o, i). -/
def fusedW (W : (⟨2, ![4096, 4096]⟩ : Shape).Idx → EReal) (B : (⟨2, ![4096, 16]⟩ : Shape).Idx → EReal)
    (A : (⟨2, ![16, 4096]⟩ : Shape).Idx → EReal) (o i : ℕ) : EReal :=
  at2 W o i + (∑ r ∈ range 16, at2 B o r * at2 A r i) * sc

/-- What the kernel computes: x against the fused weight, eight runs of 512 terms, plus the bias. -/
def kernelOut (x : (⟨3, ![4, 2048, 4096]⟩ : Shape).Idx → EReal) (W : (⟨2, ![4096, 4096]⟩ : Shape).Idx → EReal)
    (bias : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal := fun j =>
  (∑ k ∈ range 8, ∑ l ∈ range 512, at3 x (j 0).val (j 1).val (512 * k + l) * fusedW W B A (j 2).val (512 * k + l))
    + at1 bias (j 2).val

/-- What the reference computes: the base layer plus the low-rank path scaled by 1/16. -/
def refOut (x : (⟨3, ![4, 2048, 4096]⟩ : Shape).Idx → EReal) (W : (⟨2, ![4096, 4096]⟩ : Shape).Idx → EReal)
    (bias : (⟨1, ![4096]⟩ : Shape).Idx → EReal) (A : (⟨2, ![16, 4096]⟩ : Shape).Idx → EReal)
    (B : (⟨2, ![4096, 16]⟩ : Shape).Idx → EReal) : (⟨3, ![4, 2048, 4096]⟩ : Shape).Idx → EReal := fun j =>
  (∑ i ∈ range 4096, at3 x (j 0).val (j 1).val i * at2 W (j 2).val i + at1 bias (j 2).val)
    + (∑ r ∈ range 16, (∑ i ∈ range 4096, at3 x (j 0).val (j 1).val i * at2 A r i) * at2 B (j 2).val r) * sc

/-- On arrays of real numbers the kernel's result is the reference's. -/
theorem kernelOut_eq_refOut (x : (⟨3, ![4, 2048, 4096]⟩ : Shape).Idx → EReal) (W : (⟨2, ![4096, 4096]⟩ : Shape).Idx → EReal)
    (bias : (⟨1, ![4096]⟩ : Shape).Idx → EReal) (A : (⟨2, ![16, 4096]⟩ : Shape).Idx → EReal)
    (B : (⟨2, ![4096, 16]⟩ : Shape).Idx → EReal)
    (hx : AllReal x) (hW : AllReal W) (hb : AllReal bias) (hA : AllReal A) (hB : AllReal B) :
    kernelOut x W bias A B = refOut x W bias A B := by
  funext j
  unfold kernelOut refOut fusedW
  choose x' hx' using fun i => at3_real hx (j 0).val (j 1).val i
  choose W' hW' using fun i => at2_real hW (j 2).val i
  choose B' hB' using fun r => at2_real hB (j 2).val r
  choose A' hA' using fun r i => at2_real hA r i
  obtain ⟨b', hb'⟩ := at1_real hb (j 2).val
  obtain ⟨c', hc'⟩ := sc_real
  simp only [hx', hW', hB', hA', hb', hc']
  rw [sum_blocks (fun i => (x' i : EReal) * ((W' i : EReal) + (∑ r ∈ range 16, (B' r : EReal) * (A' r i : EReal)) * (c' : EReal))) 512 8]
  simp only [← EReal.coe_mul, ← coe_sum, ← EReal.coe_add]
  exact congrArg _ (real_identity x' W' B' A' b' c' 4096 16)

end Cert.LoRA

end
-- ==== Proof.Region0.lean ====
/-
  The first kernel: the fused weight.

  Grid point t of 16 holds rows 256·t … 256·t+255 of W and of B and the whole of A, and writes back the same
  rows of the result.  Its one store is W + (B·A)·(1/16) on those rows: the matrix unit accumulates into zero,
  so its value at (p, q) is the plain sum over r of B[p,r]·A[r,q], and the rounding to bf16 is the identity on
  the extended reals.  The sixteen row blocks tile the array, so after the run the array is the fused weight
  at every index.
-/
import proofs.«129920_j27023934227119_2_alg».proof.Proof.Gen.KernelIdeal.Frame
import proofs.«129920_j27023934227119_2_alg».proof.Proof.Algebra
import Idealize.ShloMosaic.Lib.Pipeline.Value
import Idealize.ShloMosaic.Lib.ValueIdx
import Idealize.ShloMosaic.PureOps.Ideal.Laws

noncomputable section

namespace Cert.KernelIdeal.Fuse

open Cert.KernelIdeal Cert.KernelIdeal.Gen Idealize.ShloMosaic Idealize.ShloMosaic.TcCoe Idealize.SL.Sem
open Idealize.ShloMosaic.ValueIdx Cert.LoRA Finset
open Idealize.ShloMosaic.Pipeline (Dat)

/-! ## The matrix unit's product at an index -/

abbrev D0 : DotDims S256x16 S16x4096 S256x4096 := dot_S256x16_S16x4096_S256x4096_1_0_0_1_n_n

theorem lhs_0 (i : S256x4096.Idx) (q : D0.contr.Idx) : (D0.lhsIdx i q 0).val = (i 0).val := by
  unfold DotDims.lhsIdx
  rw [dif_neg (show ¬(0 : Fin S256x16.rank) ∈ D0.lhsBatch by decide), dif_pos (show (0 : Fin S256x16.rank) ∈ D0.lhsNonContracting by decide)]
  rfl
theorem lhs_1 (i : S256x4096.Idx) (q : D0.contr.Idx) : (D0.lhsIdx i q 1).val = (q ⟨0, by decide⟩).val :=
  D0.lhsIdx_val_of_single rfl i q
theorem rhs_0 (i : S256x4096.Idx) (q : D0.contr.Idx) : (D0.rhsIdx i q 0).val = (q ⟨0, by decide⟩).val :=
  D0.rhsIdx_val_of_single rfl i q
theorem rhs_1 (i : S256x4096.Idx) (q : D0.contr.Idx) : (D0.rhsIdx i q 1).val = (i 1).val := by
  unfold DotDims.rhsIdx
  rw [dif_neg (show ¬(1 : Fin S16x4096.rank) ∈ D0.rhsBatch by decide), dif_pos (show (1 : Fin S16x4096.rank) ∈ D0.rhsNonContracting by decide)]
  rfl

/-- The product into a zero accumulator, at (p, q): the sum over r of the left operand at (p, r) times the right at (r, q). -/
theorem matmul_at (v0 : FVec Ideal S256x16 .f32) (v1 : FVec Ideal S16x4096 .f32) (p : Fin 256) (q : Fin 4096) :
    FloatOps.matmul D0 (some .fp32) v0 v1 (constant S256x4096 .f32 0x00000000#32) (ix2 p q)
      = ∑ r : Fin 16, v0 (ix2 p r) * v1 (ix2 r q) := by
  rw [Ideal.matmul_constant_zero_apply, ← Equiv.sum_comp (contrEquiv1 D0 16 rfl rfl).symm]
  refine Finset.sum_congr rfl fun k _ => ?_
  have hk := contrEquiv1_symm_val D0 16 rfl rfl k
  have el : D0.lhsIdx (ix2 p q) ((contrEquiv1 D0 16 rfl rfl).symm k) = ix2 p k := funext fun a => Fin.ext (by
    match a with
    | ⟨0, _⟩ => exact lhs_0 _ _
    | ⟨1, _⟩ => exact (lhs_1 _ _).trans hk)
  have er : D0.rhsIdx (ix2 p q) ((contrEquiv1 D0 16 rfl rfl).symm k) = ix2 k q := funext fun a => Fin.ext (by
    match a with
    | ⟨0, _⟩ => exact (rhs_0 _ _).trans hk
    | ⟨1, _⟩ => exact rhs_1 _ _)
  rw [el, er]

/-- The body's stored value at (p, q): the W block there plus the product of the B and A blocks times 1/16. -/
theorem pay_at (v0 : FVec Ideal S256x16 .f32) (v1 : FVec Ideal S16x4096 .f32) (v5 : FVec Ideal S256x4096 .f32)
    (p : Fin 256) (q : Fin 4096) :
    k0_pay1 (F := Ideal) v0 v1 v5 (ix2 p q) = v5 (ix2 p q) + (∑ r : Fin 16, v0 (ix2 p r) * v1 (ix2 r q)) * sc := by
  rw [← matmul_at v0 v1 p q]
  rfl

/-- A row block's stored value, when the three blocks are the rows from base on of W and B and all of A:
    the fused weight at row base + p. -/
theorem block_value (Wb : FVec Ideal S256x4096 .f32) (Bb : FVec Ideal S256x16 .f32) (Ab : FVec Ideal S16x4096 .f32)
    (W : S4096x4096.Idx → EReal) (B : S4096x16.Idx → EReal) (A : S16x4096.Idx → EReal) (base : ℕ)
    (hW : ∀ (p : Fin 256) (q : Fin 4096), Wb (ix2 p q) = at2 W (base + p.val) q.val)
    (hB : ∀ (p : Fin 256) (r : Fin 16), Bb (ix2 p r) = at2 B (base + p.val) r.val)
    (hA : ∀ (r : Fin 16) (q : Fin 4096), Ab (ix2 r q) = at2 A r.val q.val)
    (p : Fin 256) (q : Fin 4096) :
    k0_pay1 (F := Ideal) Bb Ab Wb (ix2 p q) = fusedW W B A (base + p.val) q.val := by
  rw [pay_at, hW]
  unfold fusedW
  rw [← sum_fin_eq_range 16 (fun r => at2 B (base + p.val) r * at2 A r q.val)]
  simp only [hB, hA]

/-! ## The blocks, read off the arrays the region finds -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: W, B and the result move by one row block per point; A stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem blkW (c : Dev nD) (t : Fin cfg0.N) (p : Fin 256) (q : Fin 4096) :
    iblk0 V c 0 t (ix2 p q) = at2 (V c main_arg1 : S4096x4096.Idx → EReal) (256 * t.val + p.val) q.val := by
  unfold iblk0
  rw [View.read_apply]
  show (V c main_arg1 : S4096x4096.Idx → EReal) (((cfg0.win 0).blk t).view.emb (ix2 p q)) = _
  rw [← at2_idx (V c main_arg1 : S4096x4096.Idx → EReal) (((cfg0.win 0).blk t).view.emb (ix2 p q))]
  have e0 : ((((cfg0.win 0).blk t).view.emb (ix2 p q)) 0).val = 256 * t.val + p.val := by
    show win0_0.index t (0 : Fin 2) * 256 + 1 * p.val = _; rw [(idx_facts t).1]; omega
  have e1 : ((((cfg0.win 0).blk t).view.emb (ix2 p q)) 1).val = q.val := by
    show win0_0.index t (1 : Fin 2) * 4096 + 1 * q.val = _; rw [(idx_facts t).2.1]; omega
  rw [e0, e1]

theorem blkB (c : Dev nD) (t : Fin cfg0.N) (p : Fin 256) (r : Fin 16) :
    iblk0 V c 1 t (ix2 p r) = at2 (V c main_arg4 : S4096x16.Idx → EReal) (256 * t.val + p.val) r.val := by
  unfold iblk0
  rw [View.read_apply]
  show (V c main_arg4 : S4096x16.Idx → EReal) (((cfg0.win 1).blk t).view.emb (ix2 p r)) = _
  rw [← at2_idx (V c main_arg4 : S4096x16.Idx → EReal) (((cfg0.win 1).blk t).view.emb (ix2 p r))]
  have e0 : ((((cfg0.win 1).blk t).view.emb (ix2 p r)) 0).val = 256 * t.val + p.val := by
    show win0_1.index t (0 : Fin 2) * 256 + 1 * p.val = _; rw [(idx_facts t).2.2.1]; omega
  have e1 : ((((cfg0.win 1).blk t).view.emb (ix2 p r)) 1).val = r.val := by
    show win0_1.index t (1 : Fin 2) * 16 + 1 * r.val = _; rw [(idx_facts t).2.2.2.1]; omega
  rw [e0, e1]

theorem blkA (c : Dev nD) (t : Fin cfg0.N) (r : Fin 16) (q : Fin 4096) :
    iblk0 V c 2 t (ix2 r q) = at2 (V c main_arg3 : S16x4096.Idx → EReal) r.val q.val := by
  unfold iblk0
  rw [View.read_apply]
  show (V c main_arg3 : S16x4096.Idx → EReal) (((cfg0.win 2).blk t).view.emb (ix2 r q)) = _
  rw [← at2_idx (V c main_arg3 : S16x4096.Idx → EReal) (((cfg0.win 2).blk t).view.emb (ix2 r q))]
  have e0 : ((((cfg0.win 2).blk t).view.emb (ix2 r q)) 0).val = r.val := by
    show win0_2.index t (0 : Fin 2) * 16 + 1 * r.val = _; rw [(idx_facts t).2.2.2.2.1]; omega
  have e1 : ((((cfg0.win 2).blk t).view.emb (ix2 r q)) 1).val = q.val := by
    show win0_2.index t (1 : Fin 2) * 4096 + 1 * q.val = _; rw [(idx_facts t).2.2.2.2.2.1]; omega
  rw [e0, e1]

/-! ## The array after the run -/

/-- The fused weight of the arrays the region finds, as the contents of the result array. -/
def fusedArr (c : Dev nD) : S4096x4096.Idx → EReal := fun j =>
  fusedW (V c main_arg1 : S4096x4096.Idx → EReal) (V c main_arg4 : S4096x16.Idx → EReal) (V c main_arg3 : S16x4096.Idx → EReal)
    (j 0).val (j 1).val

/-- What point t writes back is its row block of the fused weight. -/
theorem flushed_eq (c : Dev nD) (t : Fin cfg0.N) :
    (dat0 V c).flushed 3 t = ((cfg0.win 3).blk t).view.read (Elt Ideal) (fusedArr V c) := by
  show (cfg0.win 3).cut (grid0.coords t) ((dat0 V c).after 3 t) = _
  rw [after0_3]
  unfold out0_3
  rw [View.canon_unit_zero hz]
  simp only [View.ld_unit_zero (S := S256x16) hz, View.ld_unit_zero (S := S16x4096) hz, View.ld_unit_zero (S := S256x4096) hz]
  funext y
  have hy : (cfg0.win 3).xinj (grid0.coords t) y = ix2 ⟨(y 0).val, (y 0).isLt⟩ ⟨(y 1).val, (y 1).isLt⟩ :=
    funext fun a => by
      match a with
      | ⟨0, _⟩ => rfl
      | ⟨1, _⟩ => rfl
  have e0 : ((((cfg0.win 3).blk t).view.emb y) 0).val = 256 * t.val + (y 0).val := by
    show win0_3.index t (0 : Fin 2) * 256 + 1 * (y 0).val = _; rw [(idx_facts t).2.2.2.2.2.2.1]; omega
  have e1 : ((((cfg0.win 3).blk t).view.emb y) 1).val = (y 1).val := by
    show win0_3.index t (1 : Fin 2) * 4096 + 1 * (y 1).val = _; rw [(idx_facts t).2.2.2.2.2.2.2]; omega
  show k0_pay1 (F := Ideal) (iblk0 V c 1 t) (iblk0 V c 2 t) (iblk0 V c 0 t) ((cfg0.win 3).xinj (grid0.coords t) y)
    = fusedW _ _ _ ((((cfg0.win 3).blk t).view.emb y) 0).val ((((cfg0.win 3).blk t).view.emb y) 1).val
  rw [hy, e0, e1]
  exact block_value (iblk0 V c 0 t) (iblk0 V c 1 t) (iblk0 V c 2 t) _ _ _ (256 * t.val)
    (blkW V c t) (blkB V c t) (blkA V c t) ⟨(y 0).val, (y 0).isLt⟩ ⟨(y 1).val, (y 1).isLt⟩

theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v3).slice (win0_3.rect t)).set ↔ _
  rw [View.set_slice_whole, Rect.mem_set_unit]
  exact Iff.rfl

/-- Every index of the result lies in the row block of the point its row divided by 256 names. -/
theorem cover (i : S4096x4096.Idx) : ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 16 := N_0
  refine ⟨⟨(i 0).val / 256, by rw [hN]; omega⟩, flush0_3 _, ?_⟩
  rw [mem_blk]
  intro a
  match a with
  | ⟨0, _⟩ =>
    show win0_3.index _ (0 : Fin 2) * 256 ≤ (i 0).val ∧ (i 0).val < win0_3.index _ (0 : Fin 2) * 256 + 256
    rw [(idx_facts _).2.2.2.2.2.2.1]; show (i 0).val / 256 * 256 ≤ (i 0).val ∧ (i 0).val < (i 0).val / 256 * 256 + 256; omega
  | ⟨1, _⟩ =>
    show win0_3.index _ (1 : Fin 2) * 4096 ≤ (i 1).val ∧ (i 1).val < win0_3.index _ (1 : Fin 2) * 4096 + 4096
    rw [(idx_facts _).2.2.2.2.2.2.2]; omega

/-- After the run the result array holds the fused weight of the arrays the region found. -/
theorem final (c : Dev nD) : (dat0 V c).arrAt 3 cfg0.N = fusedArr V c :=
  (dat0 V c).arrAt_eq_of_cover 3 (fusedArr V c) (fun t _ => flushed_eq V c t) cover

end Cert.KernelIdeal.Fuse

end
-- ==== Proof.Region1.lean ====
/-
  The second kernel: the matrix product accumulated over the last grid axis.

  The grid is 8 × 2 × 8; point n = (i·2 + j)·8 + k holds rows 1024·i … of X, rows 2048·j … of the fused weight,
  both restricted to columns 512·k …, and the bias entries 2048·j ….  The output block (i, j) stays in its
  buffer across k: at k = 0 it is zeroed, at every k the product of the two blocks is added to it, at k = 7 the
  bias row is added, and only then is it written back.  So after point n the buffer holds, at (p, q), the first
  k + 1 runs of 512 terms of Σ_c X[1024·i + p, c]·Wt[2048·j + q, c], plus the bias at k = 7: an induction over
  the points, whose step is one more run of the sum.  The 16 output blocks tile the result.
-/
import proofs.«129920_j27023934227119_2_alg».proof.Proof.Gen.KernelIdeal.Frame
import proofs.«129920_j27023934227119_2_alg».proof.Proof.Algebra
import Idealize.ShloMosaic.Lib.Pipeline.Value
import Idealize.ShloMosaic.Lib.ValueIdx
import Idealize.ShloMosaic.Lib.Tactic
import Idealize.ShloMosaic.PureOps.Ideal.Laws

noncomputable section

namespace Cert.KernelIdeal.Mat

open Cert.KernelIdeal Cert.KernelIdeal.Gen Idealize.ShloMosaic Idealize.ShloMosaic.TcCoe Idealize.SL.Sem Idealize.ShloMosaic.Tactic
open Idealize.ShloMosaic.ValueIdx Cert.LoRA Finset
open Idealize.ShloMosaic.Pipeline (Dat)

theorem hz : (![0, 0] : Fin 2 → Nat) = fun _ => 0 := funext fun a => by fin_cases a <;> rfl

/-! ## What each control case leaves in the output block, as the body's arithmetic -/

section Cases
variable {F : FTy → Type} [FloatOps F]

/-- First point of a run over k: the block is zeroed, then the product is added. -/
theorem out_A (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc0 : cond1_0 i) (hc1 : ¬cond1_1 i)
    (x0 : Vec F S1024x512 .bf16) (x1 : Vec F S2048x512 .bf16) (x2 : Vec F S1x2048 .f32) :
    out1_A_3 (F := F) c i arg3 harg3 arg4 harg4 arg5 harg5 arg6 harg6 hc0 hc1 x0 x1 x2 = k1_pay2 (k1_pay1 (F := F)) x0 x1 := by
  unfold out1_A_3
  rw [View.read_writes_eq_canon _ _ _ (cover1_A_3 c i arg3 harg3 arg4 harg4 arg5 harg5 arg6 harg6 hc0 hc1 x0 x1 x2)]
  unfold kernelRun1_A
  dsimp only
  sl_unfold_words
  rw [View.canon_cons_unit_zero (S := S1024x2048) hz]
  rw [View.readCov_unit_zero _ hz]
  simp only [View.readAt_eq_ld, harg3.read_unread, harg4.read_unread, View.ld_unit_zero (S := S1024x512) hz, View.ld_unit_zero (S := S2048x512) hz]

/-- A middle point: the product is added to what the point before left. -/
theorem out_B (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc0 : ¬cond1_0 i) (hc1 : ¬cond1_1 i)
    (x0 : Vec F S1024x512 .bf16) (x1 : Vec F S2048x512 .bf16) (x2 : Vec F S1x2048 .f32) (xo3 : Vec F S1024x2048 .f32) :
    out1_B_3 (F := F) c i arg3 harg3 arg4 harg4 arg5 harg5 arg6 harg6 hc0 hc1 x0 x1 x2 xo3 = k1_pay2 xo3 x0 x1 := by
  unfold out1_B_3
  rw [View.read_writes_eq_canon _ _ _ (cover1_B_3 c i arg3 harg3 arg4 harg4 arg5 harg5 arg6 harg6 hc0 hc1 x0 x1 x2 xo3)]
  unfold kernelRun1_B
  dsimp only
  sl_unfold_words
  rw [View.canon_unit_zero (S := S1024x2048) hz]
  simp only [View.readAt_eq_ld, harg3.read_unread, harg4.read_unread, harg6.read_unread, View.ld_unit_zero (S := S1024x512) hz,
    View.ld_unit_zero (S := S2048x512) hz, View.ld_unit_zero (S := S1024x2048) hz]

/-- The last point: the product is added, then the bias row. -/
theorem out_C (c : Dev nD) (i : grid1.Coords) (arg3 : Memref sig .tc .vmem S1024x512 .bf16) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc0 : ¬cond1_0 i) (hc1 : cond1_1 i)
    (x0 : Vec F S1024x512 .bf16) (x1 : Vec F S2048x512 .bf16) (x2 : Vec F S1x2048 .f32) (xo3 : Vec F S1024x2048 .f32) :
    out1_C_3 (F := F) c i arg3 harg3 arg4 harg4 arg5 harg5 arg6 harg6 hc0 hc1 x0 x1 x2 xo3 = k1_pay3 (k1_pay2 xo3 x0 x1) x2 := by
  unfold out1_C_3
  rw [View.read_writes_eq_canon _ _ _ (cover1_C_3 c i arg3 harg3 arg4 harg4 arg5 harg5 arg6 harg6 hc0 hc1 x0 x1 x2 xo3)]
  unfold kernelRun1_C
  dsimp only
  sl_unfold_words
  rw [View.canon_cons_unit_zero (S := S1024x2048) hz]
  rw [View.readCov_unit_zero _ hz]
  simp only [View.readAt_eq_ld, harg3.read_unread, harg4.read_unread, harg5.read_unread, harg6.read_unread, View.ld_unit_zero (S := S1024x512) hz,
    View.ld_unit_zero (S := S2048x512) hz, View.ld_unit_zero (S := S1024x2048) hz, View.ld_unit_zero (S := S1x2048) hz]

end Cases

/-! ## The body's arithmetic at an index, on the extended reals -/

abbrev D1 : DotDims S1024x512 S2048x512 S1024x2048 := dot_S1024x512_S2048x512_S1024x2048_1_1_0_0_n_n

theorem lhs_0 (i : S1024x2048.Idx) (q : D1.contr.Idx) : (D1.lhsIdx i q 0).val = (i 0).val := by
  unfold DotDims.lhsIdx
  rw [dif_neg (show ¬(0 : Fin S1024x512.rank) ∈ D1.lhsBatch by decide), dif_pos (show (0 : Fin S1024x512.rank) ∈ D1.lhsNonContracting by decide)]
  rfl
theorem lhs_1 (i : S1024x2048.Idx) (q : D1.contr.Idx) : (D1.lhsIdx i q 1).val = (q ⟨0, by decide⟩).val :=
  D1.lhsIdx_val_of_single rfl i q
theorem rhs_0 (i : S1024x2048.Idx) (q : D1.contr.Idx) : (D1.rhsIdx i q 0).val = (i 1).val := by
  unfold DotDims.rhsIdx
  rw [dif_neg (show ¬(0 : Fin S2048x512.rank) ∈ D1.rhsBatch by decide), dif_pos (show (0 : Fin S2048x512.rank) ∈ D1.rhsNonContracting by decide)]
  rfl
theorem rhs_1 (i : S1024x2048.Idx) (q : D1.contr.Idx) : (D1.rhsIdx i q 1).val = (q ⟨0, by decide⟩).val :=
  D1.rhsIdx_val_of_single rfl i q

/-- The product into a zero accumulator, at (p, q): the sum over l of the left block at (p, l) times the right at (q, l). -/
theorem matmul_at (xb : FVec Ideal S1024x512 .bf16) (wb : FVec Ideal S2048x512 .bf16) (p : Fin 1024) (q : Fin 2048) :
    FloatOps.matmul D1 none xb wb (constant S1024x2048 .f32 0x00000000#32) (ix2 p q)
      = ∑ l : Fin 512, xb (ix2 p l) * wb (ix2 q l) := by
  rw [Ideal.matmul_constant_zero_apply, ← Equiv.sum_comp (contrEquiv1 D1 512 rfl rfl).symm]
  refine Finset.sum_congr rfl fun k _ => ?_
  have hk := contrEquiv1_symm_val D1 512 rfl rfl k
  have el : D1.lhsIdx (ix2 p q) ((contrEquiv1 D1 512 rfl rfl).symm k) = ix2 p k := funext fun a => Fin.ext (by
    match a with
    | ⟨0, _⟩ => exact lhs_0 _ _
    | ⟨1, _⟩ => exact (lhs_1 _ _).trans hk)
  have er : D1.rhsIdx (ix2 p q) ((contrEquiv1 D1 512 rfl rfl).symm k) = ix2 q k := funext fun a => Fin.ext (by
    match a with
    | ⟨0, _⟩ => exact rhs_0 _ _
    | ⟨1, _⟩ => exact (rhs_1 _ _).trans hk)
  rw [el, er]

/-- The zero splat is zero. -/
theorem pay1_at (j : S1024x2048.Idx) : k1_pay1 (F := Ideal) j = 0 := by
  show Ideal.ofBits .f32 0x00000000#32 = 0
  exact Ideal.ofBits_zero_f32

/-- The accumulation step at (p, q). -/
theorem pay2_at (acc : FVec Ideal S1024x2048 .f32) (xb : FVec Ideal S1024x512 .bf16) (wb : FVec Ideal S2048x512 .bf16)
    (p : Fin 1024) (q : Fin 2048) :
    k1_pay2 (F := Ideal) acc xb wb (ix2 p q) = acc (ix2 p q) + ∑ l : Fin 512, xb (ix2 p l) * wb (ix2 q l) := by
  rw [← matmul_at xb wb p q]
  unfold k1_pay2
  simp only [shapeCast_self]
  rfl

/-- The bias step at (p, q): the bias row's entry q is added. -/
theorem pay3_at (acc : FVec Ideal S1024x2048 .f32) (bb : FVec Ideal S1x2048 .f32) (p : Fin 1024) (q : Fin 2048) :
    k1_pay3 (F := Ideal) acc bb (ix2 p q) = acc (ix2 p q) + bb (ix2 (0 : Fin 1) q) := by
  unfold k1_pay3
  simp only [shapeCast_self]
  show acc (ix2 p q) + broadcastTo S1024x2048 bb broadcasts_S1x2048_S1024x2048 (ix2 p q) = _
  rw [broadcastTo_apply bb broadcasts_S1x2048_S1024x2048 (ix2 p q) (ix2 (0 : Fin 1) q) (fun a => by
    match a with
    | ⟨0, _⟩ => rfl
    | ⟨1, _⟩ => rfl)]

/-- The first K runs of 512 terms of the product of row row of X with row col of Wt. -/
def runs (X : S8192x4096.Idx → EReal) (Wt : S4096x4096.Idx → EReal) (row col K : ℕ) : EReal :=
  ∑ k ∈ range K, ∑ l ∈ range 512, at2 X row (512 * k + l) * at2 Wt col (512 * k + l)

/-- One more run of the sum. -/
theorem runs_succ (X : S8192x4096.Idx → EReal) (Wt : S4096x4096.Idx → EReal) (row col K : ℕ) :
    runs X Wt row col (K + 1) = runs X Wt row col K + ∑ l ∈ range 512, at2 X row (512 * K + l) * at2 Wt col (512 * K + l) := by
  unfold runs
  exact Finset.sum_range_succ _ _

/-- The accumulation step, when the two blocks are the rows from row and col on, columns of run kk, of X and Wt:
    one more run of the sum. -/
theorem pay2_value (prev : FVec Ideal S1024x2048 .f32) (xb : FVec Ideal S1024x512 .bf16) (wb : FVec Ideal S2048x512 .bf16)
    (X : S8192x4096.Idx → EReal) (Wt : S4096x4096.Idx → EReal) (row col kk : ℕ)
    (hx : ∀ (p : Fin 1024) (l : Fin 512), xb (ix2 p l) = at2 X (row + p.val) (512 * kk + l.val))
    (hw : ∀ (q : Fin 2048) (l : Fin 512), wb (ix2 q l) = at2 Wt (col + q.val) (512 * kk + l.val))
    (p : Fin 1024) (q : Fin 2048) :
    k1_pay2 (F := Ideal) prev xb wb (ix2 p q)
      = prev (ix2 p q) + ∑ l ∈ range 512, at2 X (row + p.val) (512 * kk + l) * at2 Wt (col + q.val) (512 * kk + l) := by
  rw [pay2_at, ← sum_fin_eq_range 512 (fun l => at2 X (row + p.val) (512 * kk + l) * at2 Wt (col + q.val) (512 * kk + l))]
  simp only [hx, hw]

/-! ## The blocks, read off the arrays the region finds -/

variable (V : (c : Dev nD) → (b : Ref sig .tc) → Buf (Elt Ideal) ((c : Thread nD τ).loc b))

/-- The printed index maps over the grid, point n = (i·2 + j)·8 + k: X at (i, k), the weight at (j, k), the bias
    at (0, j), the output at (i, j). -/
theorem idx_facts : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

abbrev Xv (c : Dev nD) : S8192x4096.Idx → EReal := V c main_v2
abbrev Wv (c : Dev nD) : S4096x4096.Idx → EReal := V c main_v3
abbrev bv (c : Dev nD) : S1x4096.Idx → EReal := V c main_v1

theorem blkX (c : Dev nD) (t : Fin cfg1.N) (p : Fin 1024) (l : Fin 512) :
    iblk1 V c 0 t (ix2 p l) = at2 (Xv V c) (1024 * (t.val / 16) + p.val) (512 * (t.val % 8) + l.val) := by
  unfold iblk1
  rw [View.read_apply]
  show (Xv V c) (((cfg1.win 0).blk t).view.emb (ix2 p l)) = _
  rw [← at2_idx (Xv V c) (((cfg1.win 0).blk t).view.emb (ix2 p l))]
  have e0 : ((((cfg1.win 0).blk t).view.emb (ix2 p l)) 0).val = 1024 * (t.val / 16) + p.val := by
    show win1_0.index t (0 : Fin 2) * 1024 + 1 * p.val = _; rw [(idx_facts t).1]; omega
  have e1 : ((((cfg1.win 0).blk t).view.emb (ix2 p l)) 1).val = 512 * (t.val % 8) + l.val := by
    show win1_0.index t (1 : Fin 2) * 512 + 1 * l.val = _; rw [(idx_facts t).2.1]; omega
  rw [e0, e1]

theorem blkW (c : Dev nD) (t : Fin cfg1.N) (q : Fin 2048) (l : Fin 512) :
    iblk1 V c 1 t (ix2 q l) = at2 (Wv V c) (2048 * (t.val / 8 % 2) + q.val) (512 * (t.val % 8) + l.val) := by
  unfold iblk1
  rw [View.read_apply]
  show (Wv V c) (((cfg1.win 1).blk t).view.emb (ix2 q l)) = _
  rw [← at2_idx (Wv V c) (((cfg1.win 1).blk t).view.emb (ix2 q l))]
  have e0 : ((((cfg1.win 1).blk t).view.emb (ix2 q l)) 0).val = 2048 * (t.val / 8 % 2) + q.val := by
    show win1_1.index t (0 : Fin 2) * 2048 + 1 * q.val = _; rw [(idx_facts t).2.2.1]; omega
  have e1 : ((((cfg1.win 1).blk t).view.emb (ix2 q l)) 1).val = 512 * (t.val % 8) + l.val := by
    show win1_1.index t (1 : Fin 2) * 512 + 1 * l.val = _; rw [(idx_facts t).2.2.2.1]; omega
  rw [e0, e1]

theorem blkb (c : Dev nD) (t : Fin cfg1.N) (q : Fin 2048) :
    iblk1 V c 2 t (ix2 (0 : Fin 1) q) = at2 (bv V c) 0 (2048 * (t.val / 8 % 2) + q.val) := by
  unfold iblk1
  rw [View.read_apply]
  show (bv V c) (((cfg1.win 2).blk t).view.emb (ix2 (0 : Fin 1) q)) = _
  rw [← at2_idx (bv V c) (((cfg1.win 2).blk t).view.emb (ix2 (0 : Fin 1) q))]
  have e0 : ((((cfg1.win 2).blk t).view.emb (ix2 (0 : Fin 1) q)) 0).val = 0 := by
    show win1_2.index t (0 : Fin 2) * 1 + 1 * 0 = _; rw [(idx_facts t).2.2.2.2.1]
  have e1 : ((((cfg1.win 2).blk t).view.emb (ix2 (0 : Fin 1) q)) 1).val = 2048 * (t.val / 8 % 2) + q.val := by
    show win1_2.index t (1 : Fin 2) * 2048 + 1 * q.val = _; rw [(idx_facts t).2.2.2.2.2.1]; omega
  rw [e0, e1]

/-! ## The output block after every point -/

/-- What the output block holds after point n: the first n % 8 + 1 runs of the sum, and the bias at the last k. -/
def accAt (X : S8192x4096.Idx → EReal) (Wt : S4096x4096.Idx → EReal) (bt : S1x4096.Idx → EReal) (n : ℕ) : S1024x2048.Idx → EReal := fun y =>
  runs X Wt (1024 * (n / 16) + (y 0).val) (2048 * (n / 8 % 2) + (y 1).val) (n % 8 + 1)
    + (if n % 8 = 7 then at2 bt 0 (2048 * (n / 8 % 2) + (y 1).val) else 0)

theorem accAt_ix2 (X : S8192x4096.Idx → EReal) (Wt : S4096x4096.Idx → EReal) (bt : S1x4096.Idx → EReal) (n : ℕ) (p : Fin 1024) (q : Fin 2048) :
    accAt X Wt bt n (ix2 p q) = runs X Wt (1024 * (n / 16) + p.val) (2048 * (n / 8 % 2) + q.val) (n % 8 + 1)
      + (if n % 8 = 7 then at2 bt 0 (2048 * (n / 8 % 2) + q.val) else 0) := rfl

theorem caseA (c : Dev nD) (t : Fin cfg1.N) (h0 : t.val % 8 = 0) :
    outsAt1 V c t.val t.isLt = accAt (Xv V c) (Wv V c) (bv V c) t.val := by
  funext y
  obtain ⟨p, q, rfl⟩ : ∃ (p : Fin 1024) (q : Fin 2048), y = ix2 p q := ⟨y 0, y 1, eq_ix2 y⟩
  rw [outsAt1_A V c t h0 (by omega), out_A]
  refine (pay2_value (k1_pay1 (F := Ideal)) (iblk1 V c 0 t) (iblk1 V c 1 t) (Xv V c) (Wv V c) (1024 * (t.val / 16)) (2048 * (t.val / 8 % 2)) (t.val % 8)
    (blkX V c t) (blkW V c t) p q).trans ?_
  rw [accAt_ix2, pay1_at, h0, if_neg (by decide), zero_add, add_zero]
  unfold runs
  rw [Finset.sum_range_one]

theorem caseB (c : Dev nD) (t : Fin cfg1.N) (h0 : ¬t.val % 8 = 0) (h1 : ¬t.val % 8 = 7)
    (hprev : outsAt1 V c (t.val - 1) (Nat.lt_of_le_of_lt (Nat.sub_le _ _) t.isLt) = accAt (Xv V c) (Wv V c) (bv V c) (t.val - 1)) :
    outsAt1 V c t.val t.isLt = accAt (Xv V c) (Wv V c) (bv V c) t.val := by
  funext y
  obtain ⟨p, q, rfl⟩ : ∃ (p : Fin 1024) (q : Fin 2048), y = ix2 p q := ⟨y 0, y 1, eq_ix2 y⟩
  rw [outsAt1_B V c t h0 h1, out_B]
  refine (pay2_value _ (iblk1 V c 0 t) (iblk1 V c 1 t) (Xv V c) (Wv V c) (1024 * (t.val / 16)) (2048 * (t.val / 8 % 2)) (t.val % 8)
    (blkX V c t) (blkW V c t) p q).trans ?_
  rw [hprev, accAt_ix2, accAt_ix2]
  have e1 : (t.val - 1) / 16 = t.val / 16 := by omega
  have e2 : (t.val - 1) / 8 % 2 = t.val / 8 % 2 := by omega
  have e3 : (t.val - 1) % 8 + 1 = t.val % 8 := by omega
  have e4 : ¬(t.val - 1) % 8 = 7 := by omega
  rw [e1, e2, e3, if_neg e4, if_neg h1, add_zero, add_zero]
  rw [runs_succ]

theorem caseC (c : Dev nD) (t : Fin cfg1.N) (h0 : ¬t.val % 8 = 0) (h1 : t.val % 8 = 7)
    (hprev : outsAt1 V c (t.val - 1) (Nat.lt_of_le_of_lt (Nat.sub_le _ _) t.isLt) = accAt (Xv V c) (Wv V c) (bv V c) (t.val - 1)) :
    outsAt1 V c t.val t.isLt = accAt (Xv V c) (Wv V c) (bv V c) t.val := by
  funext y
  obtain ⟨p, q, rfl⟩ : ∃ (p : Fin 1024) (q : Fin 2048), y = ix2 p q := ⟨y 0, y 1, eq_ix2 y⟩
  rw [outsAt1_C V c t h0 h1, out_C]
  refine (pay3_at _ (iblk1 V c 2 t) p q).trans ?_
  refine (congrArg₂ (· + ·) (pay2_value _ (iblk1 V c 0 t) (iblk1 V c 1 t) (Xv V c) (Wv V c) (1024 * (t.val / 16)) (2048 * (t.val / 8 % 2)) (t.val % 8)
    (blkX V c t) (blkW V c t) p q) (blkb V c t q)).trans ?_
  rw [hprev, accAt_ix2, accAt_ix2]
  have e1 : (t.val - 1) / 16 = t.val / 16 := by omega
  have e2 : (t.val - 1) / 8 % 2 = t.val / 8 % 2 := by omega
  have e3 : (t.val - 1) % 8 + 1 = t.val % 8 := by omega
  have e4 : ¬(t.val - 1) % 8 = 7 := by omega
  rw [e1, e2, e3, if_neg e4, if_pos h1, add_zero]
  rw [runs_succ]

/-- After every point the output block is the partial sum its position in the run over k names. -/
theorem outs_eq (c : Dev nD) (n : ℕ) : ∀ hn : n < cfg1.N, outsAt1 V c n hn = accAt (Xv V c) (Wv V c) (bv V c) n := by
  induction n using Nat.strong_induction_on with
  | _ n ih =>
    intro hn
    by_cases h0 : n % 8 = 0
    · exact caseA V c ⟨n, hn⟩ h0
    · have hprev := ih (n - 1) (by omega) (Nat.lt_of_le_of_lt (Nat.sub_le _ _) hn)
      by_cases h1 : n % 8 = 7
      · exact caseC V c ⟨n, hn⟩ h0 h1 hprev
      · exact caseB V c ⟨n, hn⟩ h0 h1 hprev

/-! ## The array after the run -/

/-- The whole product plus the bias, of the arrays the region finds. -/
def outArr (c : Dev nD) : S8192x4096.Idx → EReal := fun j =>
  runs (Xv V c) (Wv V c) (j 0).val (j 1).val 8 + at2 (bv V c) 0 (j 1).val

/-- What a last-k point writes back is its block of the product plus bias. -/
theorem flushed_eq (c : Dev nD) (t : Fin cfg1.N) (hf : (cfg1.win 3).flush t = true) :
    (dat1 V c).flushed 3 t = ((cfg1.win 3).blk t).view.read (Elt Ideal) (outArr V c) := by
  have h7 : t.val % 8 = 7 := (flush1_3 t).mp hf
  show (cfg1.win 3).cut (grid1.coords t) ((dat1 V c).after 3 t) = _
  rw [after1_3, outs_eq V c t.val t.isLt]
  funext y
  have e0 : ((((cfg1.win 3).blk t).view.emb y) 0).val = 1024 * (t.val / 16) + (y 0).val := by
    show win1_3.index t (0 : Fin 2) * 1024 + 1 * (y 0).val = _; rw [(idx_facts t).2.2.2.2.2.2.1]; omega
  have e1 : ((((cfg1.win 3).blk t).view.emb y) 1).val = 2048 * (t.val / 8 % 2) + (y 1).val := by
    show win1_3.index t (1 : Fin 2) * 2048 + 1 * (y 1).val = _; rw [(idx_facts t).2.2.2.2.2.2.2]; omega
  show runs (Xv V c) (Wv V c) (1024 * (t.val / 16) + (y 0).val) (2048 * (t.val / 8 % 2) + (y 1).val) (t.val % 8 + 1)
      + (if t.val % 8 = 7 then at2 (bv V c) 0 (2048 * (t.val / 8 % 2) + (y 1).val) else 0)
    = runs (Xv V c) (Wv V c) ((((cfg1.win 3).blk t).view.emb y) 0).val ((((cfg1.win 3).blk t).view.emb y) 1).val 8
      + at2 (bv V c) 0 ((((cfg1.win 3).blk t).view.emb y) 1).val
  rw [e0, e1, h7, if_pos rfl]

theorem mem_blk (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v4).slice (win1_3.rect t)).set ↔ _
  rw [View.set_slice_whole, Rect.mem_set_unit]
  exact Iff.rfl

/-- Every index of the result lies in the block of the last-k point of its row block and column block. -/
theorem cover (i : S8192x4096.Idx) : ∃ t : Fin cfg1.N, (cfg1.win 3).flush t = true ∧ i ∈ ((cfg1.win 3).blk t).view.set := by
  have h0 : (i 0).val < 8192 := (i 0).isLt
  have h1 : (i 1).val < 4096 := (i 1).isLt
  have hN : cfg1.N = 128 := N_1
  have ht : ((i 0).val / 1024 * 2 + (i 1).val / 2048) * 8 + 7 < cfg1.N := by rw [hN]; omega
  refine ⟨⟨((i 0).val / 1024 * 2 + (i 1).val / 2048) * 8 + 7, ht⟩, (flush1_3 _).mpr (by show (((i 0).val / 1024 * 2 + (i 1).val / 2048) * 8 + 7) % 8 = 7; omega), ?_⟩
  rw [mem_blk]
  intro a
  match a with
  | ⟨0, _⟩ =>
    show win1_3.index _ (0 : Fin 2) * 1024 ≤ (i 0).val ∧ (i 0).val < win1_3.index _ (0 : Fin 2) * 1024 + 1024
    rw [(idx_facts _).2.2.2.2.2.2.1]
    show (((i 0).val / 1024 * 2 + (i 1).val / 2048) * 8 + 7) / 16 * 1024 ≤ (i 0).val ∧ (i 0).val < (((i 0).val / 1024 * 2 + (i 1).val / 2048) * 8 + 7) / 16 * 1024 + 1024
    omega
  | ⟨1, _⟩ =>
    show win1_3.index _ (1 : Fin 2) * 2048 ≤ (i 1).val ∧ (i 1).val < win1_3.index _ (1 : Fin 2) * 2048 + 2048
    rw [(idx_facts _).2.2.2.2.2.2.2]
    show (((i 0).val / 1024 * 2 + (i 1).val / 2048) * 8 + 7) / 8 % 2 * 2048 ≤ (i 1).val ∧ (i 1).val < (((i 0).val / 1024 * 2 + (i 1).val / 2048) * 8 + 7) / 8 % 2 * 2048 + 2048
    omega

/-- After the run the result array holds the product plus bias of the arrays the region found. -/
theorem final (c : Dev nD) : (dat1 V c).arrAt 3 cfg1.N = outArr V c :=
  (dat1 V c).arrAt_eq_of_cover 3 (outArr V c) (flushed_eq V c) cover

end Cert.KernelIdeal.Mat

end
-- ==== Proof.KRun.lean ====
/-
  The whole kernel program, run, with its result named.

  The program is: reshape x to 8192 × 4096 and round it to bf16, reshape the bias to 1 × 4096, the first kernel
  (the fused weight), the second kernel (the product plus bias), and a reshape of the 8192 × 4096 product back to
  4 × 2048 × 4096.  The run below is the frame's run of those segments with one more conjunct kept from what it
  knows of the final memory: the result buffer holds what the last reshape leaves.  Reading that back through the
  segments — the reshape at equal row-major position, the second kernel's array, its operands (the rounded x, the
  first kernel's array, the reshaped bias), the first kernel's operands (the arguments themselves) — gives the
  result as a function of the five arguments: x against the fused weight in eight runs of 512 terms, plus the bias.
-/
import proofs.«129920_j27023934227119_2_alg».proof.Proof.Gen.KernelIdeal.Frame
import proofs.«129920_j27023934227119_2_alg».proof.Proof.Region0
import proofs.«129920_j27023934227119_2_alg».proof.Proof.Region1
import Idealize.ShloMosaic.Lib.StableHlo.Run
import Idealize.ShloMosaic.Lib.Pipeline.Value

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at what the last
    reshape leaves and the five arguments as launched. -/
theorem run_named : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Run

/-! ## The result buffer, read back through the segments (on the extended reals) -/

open Idealize.ShloMosaic.ValueIdx Cert.LoRA Finset

variable (m : (ℓ : Loc nD τ sig) → Buf (Elt Ideal) ℓ) (ρ : Dev nD → PrngReg)

/-- The last reshape: the result buffer is the second kernel's array at the 4 × 2048 × 4096 shape. -/
theorem W4_v5 (c : Dev nD) :
    (W4 m ρ c (Proc.devRef .tc main_v5) : S4x2048x4096.Idx → EReal)
      = shapeCast S4x2048x4096 (W3 m ρ c (Proc.devRef .tc main_v4) : S8192x4096.Idx → EReal) shapeCasts_S8192x4096_S4x2048x4096 := by
  show StableHlo.after hostOps2 (W3 m ρ c) (Proc.devRef .tc main_v5) = _
  after_results
  rfl

/-- The first host stretch: x reshaped and rounded (the rounding is the identity here), -/
theorem V1_v2 (c : Dev nD) :
    (V1 m ρ c main_v2 : S8192x4096.Idx → EReal)
      = shapeCast S8192x4096 (m ((c : Thread nD τ).loc main_arg0) : S4x2048x4096.Idx → EReal) shapeCasts_S4x2048x4096_S8192x4096 := by
  show StableHlo.after hostOps0 (W0 m ρ c) (Proc.devRef .tc main_v2) = _
  after_results
  rfl

/-- the bias reshaped, -/
theorem V1_v1 (c : Dev nD) :
    (V1 m ρ c main_v1 : S1x4096.Idx → EReal)
      = shapeCast S1x4096 (m ((c : Thread nD τ).loc main_arg2) : S4096.Idx → EReal) shapeCasts_S4096_S1x4096 := by
  show StableHlo.after hostOps0 (W0 m ρ c) (Proc.devRef .tc main_v1) = _
  after_results
  rfl

/-- and W, B, A untouched. -/
theorem V1_arg1 (c : Dev nD) : V1 m ρ c main_arg1 = m ((c : Thread nD τ).loc main_arg1) := by
  show StableHlo.after hostOps0 (W0 m ρ c) (Proc.devRef .tc main_arg1) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results

/-- What the second kernel finds: the first kernel's array, and the two host results the first kernel left alone. -/
theorem V2_v3 (c : Dev nD) : V2 m ρ c main_v3 = Fuse.fusedArr (V1 m ρ) c :=
  (W2_arr m ρ c 3).trans (Fuse.final (V1 m ρ) c)
theorem V2_v2 (c : Dev nD) : V2 m ρ c main_v2 = V1 m ρ c main_v2 := W2_of_ne m ρ c main_v2 (by decide)
theorem V2_v1 (c : Dev nD) : V2 m ρ c main_v1 = V1 m ρ c main_v1 := W2_of_ne m ρ c main_v1 (by decide)

/-- The second kernel's array after its run. -/
theorem W3_v4 (c : Dev nD) : W3 m ρ c (Proc.devRef .tc main_v4) = Mat.outArr (V2 m ρ) c :=
  (W3_arr m ρ c 3).trans (Mat.final (V2 m ρ) c)

/-! ### The operands at natural coordinates -/

/-- The reshaped x at row 2048·b + s is x at (b, s). -/
theorem at2_x (x : S4x2048x4096.Idx → EReal) (b : Fin 4) (s : Fin 2048) (cc : ℕ) :
    at2 (shapeCast S8192x4096 x shapeCasts_S4x2048x4096_S8192x4096) (2048 * b.val + s.val) cc = at3 x b.val s.val cc := by
  unfold at2 at3
  by_cases hc : cc < 4096
  · rw [dif_pos ⟨by omega, hc⟩, dif_pos ⟨b.isLt, s.isLt, hc⟩]
    refine shapeCast_apply x shapeCasts_S4x2048x4096_S8192x4096 _ _ ?_
    rw [Shape.rowMajor_val_three, Shape.rowMajor_val_two]
    show (b.val * 2048 + s.val) * 4096 + cc = (2048 * b.val + s.val) * 4096 + cc
    omega
  · rw [dif_neg (by omega), dif_neg (by omega)]

/-- The reshaped bias at (0, o) is the bias at o. -/
theorem at2_bias (bias : S4096.Idx → EReal) (o : ℕ) :
    at2 (shapeCast S1x4096 bias shapeCasts_S4096_S1x4096) 0 o = at1 bias o := by
  unfold at2 at1
  by_cases ho : o < 4096
  · rw [dif_pos ⟨by omega, ho⟩, dif_pos ho]
    refine shapeCast_apply bias shapeCasts_S4096_S1x4096 _ _ ?_
    rw [Shape.rowMajor_val_one, Shape.rowMajor_val_two]
    show o = 0 * 4096 + o
    omega
  · rw [dif_neg (by omega), dif_neg ho]

/-- The first kernel's array at (o, i) inside the array is the fused weight there. -/
theorem at2_fused (c : Dev nD) (o i : ℕ) (ho : o < 4096) (hi : i < 4096) :
    at2 (Fuse.fusedArr (V1 m ρ) c) o i
      = fusedW (m ((c : Thread nD τ).loc main_arg1)) (m ((c : Thread nD τ).loc main_arg4)) (m ((c : Thread nD τ).loc main_arg3)) o i := by
  unfold at2
  rw [dif_pos ⟨ho, hi⟩]
  unfold Fuse.fusedArr
  rw [V1_arg1, V1_arg3, V1_arg4]

/-- THE KERNEL PROGRAM'S RESULT as a function of its five arguments. -/
theorem result_eq (c : Dev nD) :
    (W4 m ρ c (Proc.devRef .tc main_v5) : S4x2048x4096.Idx → EReal)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [W4_v5, W3_v4]
  funext j
  obtain ⟨b, s, o, rfl⟩ : ∃ (b : Fin 4) (s : Fin 2048) (o : Fin 4096), j = ix3 b s o := ⟨j 0, j 1, j 2, eq_ix3 j⟩
  have hb := b.isLt
  have hs := s.isLt
  rw [shapeCast_apply (Mat.outArr (V2 m ρ) c) shapeCasts_S8192x4096_S4x2048x4096 (ix3 b s o)
    (ix2 ⟨2048 * b.val + s.val, by omega⟩ o) (by
      rw [Shape.rowMajor_val_three, Shape.rowMajor_val_two]
      show (2048 * b.val + s.val) * 4096 + o.val = (b.val * 2048 + s.val) * 4096 + o.val
      omega)]
  show Mat.runs (V2 m ρ c main_v2) (V2 m ρ c main_v3) (2048 * b.val + s.val) o.val 8 + at2 (V2 m ρ c main_v1 : S1x4096.Idx → EReal) 0 o.val
    = (∑ k ∈ range 8, ∑ l ∈ range 512, at3 (m ((c : Thread nD τ).loc main_arg0) : S4x2048x4096.Idx → EReal) b.val s.val (512 * k + l)
          * fusedW (m ((c : Thread nD τ).loc main_arg1)) (m ((c : Thread nD τ).loc main_arg4)) (m ((c : Thread nD τ).loc main_arg3)) o.val (512 * k + l))
        + at1 (m ((c : Thread nD τ).loc main_arg2) : S4096.Idx → EReal) o.val
  rw [V2_v1, V1_v1, at2_bias, V2_v2, V1_v2, V2_v3]
  unfold Mat.runs
  refine congrArg (· + _) (Finset.sum_congr rfl fun k hk => Finset.sum_congr rfl fun l hl => ?_)
  have hk' := Finset.mem_range.mp hk
  have hl' := Finset.mem_range.mp hl
  rw [at2_x, at2_fused m ρ c o.val (512 * k + l) o.isLt (by omega)]

end Cert.KernelIdeal.RunV

end
-- ==== Proof.RefIs.lean ====
/-
  The reference's result at an index, in natural coordinates.

  The reference is (x·Wᵀ + bias) + ((x·Aᵀ)·Bᵀ)·(1/16) with plain sums over the whole contracted axes.  Reading
  each operation at an index (b, s, o) gives the base product's sum over i of x[b,s,i]·W[o,i], the bias at o, and
  the low-rank path's sum over r of (sum over i of x[b,s,i]·A[r,i])·B[o,r], scaled.
-/
import proofs.«129920_j27023934227119_2_alg».proof.Proof.Gen.ReferenceIdeal.Read
import proofs.«129920_j27023934227119_2_alg».proof.Proof.Algebra

noncomputable section

namespace Cert.ReferenceIdeal.RefValue

open Cert.ReferenceIdeal Cert.ReferenceIdeal.Gen Cert.ReferenceIdeal.Read Idealize.ShloMosaic Idealize.ShloMosaic.ValueIdx Cert.LoRA Finset

theorem base_sum (x : S4x2048x4096.Idx → EReal) (W : S4096x4096.Idx → EReal) (b : Fin 4) (s : Fin 2048) (o : Fin 4096) :
    ∑ k : Fin 4096, x (lidx_main_v0 (ix3 b s o) k) * W (ridx_main_v0 (ix3 b s o) k)
      = ∑ k ∈ range 4096, at3 x b.val s.val k * at2 W o.val k := by
  rw [← sum_fin_eq_range 4096 (fun k => at3 x b.val s.val k * at2 W o.val k)]
  refine Finset.sum_congr rfl fun k _ => ?_
  rw [at3_ix3, at2_ix2]
  have e1 : lidx_main_v0 (ix3 b s o) k = ix3 b s k := funext fun a => by
    match a with
    | ⟨0, _⟩ => rfl
    | ⟨1, _⟩ => rfl
    | ⟨2, _⟩ => rfl
  have e2 : ridx_main_v0 (ix3 b s o) k = ix2 o k := funext fun a => by
    match a with
    | ⟨0, _⟩ => rfl
    | ⟨1, _⟩ => rfl
  rw [e1, e2]

theorem inner_sum (x : S4x2048x4096.Idx → EReal) (A : S16x4096.Idx → EReal) (b : Fin 4) (s : Fin 2048) (r : Fin 16) :
    ∑ k : Fin 4096, x (lidx_main_v4 (ix3 b s r) k) * A (ridx_main_v4 (ix3 b s r) k)
      = ∑ k ∈ range 4096, at3 x b.val s.val k * at2 A r.val k := by
  rw [← sum_fin_eq_range 4096 (fun k => at3 x b.val s.val k * at2 A r.val k)]
  refine Finset.sum_congr rfl fun k _ => ?_
  rw [at3_ix3, at2_ix2]
  have e1 : lidx_main_v4 (ix3 b s r) k = ix3 b s k := funext fun a => by
    match a with
    | ⟨0, _⟩ => rfl
    | ⟨1, _⟩ => rfl
    | ⟨2, _⟩ => rfl
  have e2 : ridx_main_v4 (ix3 b s r) k = ix2 r k := funext fun a => by
    match a with
    | ⟨0, _⟩ => rfl
    | ⟨1, _⟩ => rfl
  rw [e1, e2]

/-- The reference's result is the base layer plus the scaled low-rank path, index by index. -/
theorem ref_eq (x : S4x2048x4096.Idx → EReal) (W : S4096x4096.Idx → EReal) (bias : S4096.Idx → EReal)
    (A : S16x4096.Idx → EReal) (B : S4096x16.Idx → EReal) :
    val_main_v8 (F := Ideal) x W bias A B = refOut x W bias A B := by
  funext j
  obtain ⟨b, s, o, rfl⟩ : ∃ (b : Fin 4) (s : Fin 2048) (o : Fin 4096), j = ix3 b s o := ⟨j 0, j 1, j 2, eq_ix3 j⟩
  rw [val_main_v8_apply, val_main_v3_apply, val_main_v0_apply, val_main_v2_apply, val_main_v1_apply, val_main_v7_apply,
    val_main_v5_apply, val_main_v6_apply, val_main_cst_apply]
  simp only [val_main_v4_apply]
  rw [base_sum]
  have e5 : ∀ r : Fin 16, lidx_main_v5 (ix3 b s o) r = ix3 b s r := fun r => funext fun a => by
    match a with
    | ⟨0, _⟩ => rfl
    | ⟨1, _⟩ => rfl
    | ⟨2, _⟩ => rfl
  have e6 : ∀ r : Fin 16, ridx_main_v5 (ix3 b s o) r = ix2 o r := fun r => funext fun a => by
    match a with
    | ⟨0, _⟩ => rfl
    | ⟨1, _⟩ => rfl
  have eb : idx_main_v1 (idx_main_v2 (ix3 b s o)) = ix1 o := funext fun a => by
    match a with
    | ⟨0, _⟩ => rfl
  simp only [e5, e6, eb, inner_sum]
  show (∑ k ∈ range 4096, at3 x b.val s.val k * at2 W o.val k + bias (ix1 o))
      + (∑ r : Fin 16, (∑ k ∈ range 4096, at3 x b.val s.val k * at2 A r.val k) * B (ix2 o r)) * sc
    = (∑ i ∈ range 4096, at3 x b.val s.val i * at2 W o.val i + at1 bias o.val)
      + (∑ r ∈ range 16, (∑ i ∈ range 4096, at3 x b.val s.val i * at2 A r i) * at2 B o.val r) * sc
  rw [at1_ix1, ← sum_fin_eq_range 16 (fun r => (∑ i ∈ range 4096, at3 x b.val s.val i * at2 A r i) * at2 B o.val r)]
  simp only [at2_ix2]

end Cert.ReferenceIdeal.RefValue

end
-- ==== Proof.Finite.lean ====
/-
  From the precondition to real entries.

  The precondition is the conjunction, over the five arguments, of "every entry's absolute value is below +∞".
  On the extended reals the absolute value is max x (−x), and it is below +∞ exactly when x is neither
  infinity, that is, when x is a real number.  Each conjunct is an and-reduction over all axes that came out 1,
  so every compared entry came out 1.
-/
import proofs.«129920_j27023934227119_2_alg».proof.Pre_finite_inputs
import proofs.«129920_j27023934227119_2_alg».proof.Proof.Gen.Pre_finite_inputs
import proofs.«129920_j27023934227119_2_alg».proof.Proof.Algebra
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Cert.LoRA

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton S_.Idx := ⟨fun a b => funext fun d => d.elim0⟩

/-- Under the precondition every entry of every argument is a real number. -/
theorem all_real (x : FVec Ideal S4x2048x4096 .f32) (W : FVec Ideal S4096x4096 .f32) (bias : FVec Ideal S4096 .f32)
    (A : FVec Ideal S16x4096 .f32) (B : FVec Ideal S4096x16 .f32)
    (h : fn (F := Ideal) x W bias A B = fun _ => 1#1) :
    AllReal x ∧ AllReal W ∧ AllReal bias ∧ AllReal A ∧ AllReal B := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  refine ⟨fun j => real_of_abs_lt _ (Host.reduce_andi_all _ _ _ _ _ h3 j),
    fun j => real_of_abs_lt _ (Host.reduce_andi_all _ _ _ _ _ h7 j),
    fun j => real_of_abs_lt _ (Host.reduce_andi_all _ _ _ _ _ h12 j),
    fun j => real_of_abs_lt _ (Host.reduce_andi_all _ _ _ _ _ h17 j),
    fun j => real_of_abs_lt _ (Host.reduce_andi_all _ _ _ _ _ h22 j)⟩

end Cert.Pre_finite_inputs.Finite

end
-- ==== Proof.lean ====
/-
  A linear layer with a low-rank update: the kernel against its reference, on the extended reals.

  The kernel computes x·Weffᵀ + bias with Weff = W + (B·A)/16 fused beforehand (two kernels: the fusion, then a
  matrix product accumulated over eight column runs, around reshapes); the reference computes
  (x·Wᵀ + bias) + ((x·Aᵀ)·Bᵀ)/16.  The three frames are the programs' runs with the result dropped.  No operation
  was rewritten by the idealization, so nothing is to be preserved.  For the value claim, the kernel program's
  run names its result as a function of the five arguments (x against the fused weight, plus bias), the
  reference's run names its own (the base layer plus the scaled low-rank path), and the two functions agree
  wherever every entry is a real number — which the precondition gives: distributing x over the fused weight's
  sum needs finite entries.
-/
import proofs.«129920_j27023934227119_2_alg».proof.Defs
import proofs.«129920_j27023934227119_2_alg».proof.Proof.Gen.Kernel
import proofs.«129920_j27023934227119_2_alg».proof.Proof.Gen.Kernel.Frame
import proofs.«129920_j27023934227119_2_alg».proof.Proof.Gen.KernelIdeal
import proofs.«129920_j27023934227119_2_alg».proof.Proof.Gen.KernelIdeal.Frame
import proofs.«129920_j27023934227119_2_alg».proof.Proof.Gen.ReferenceIdeal
import proofs.«129920_j27023934227119_2_alg».proof.Proof.Gen.Pre_finite_inputs
import proofs.«129920_j27023934227119_2_alg».proof.Proof.Gen.ReferenceIdeal.Run
import proofs.«129920_j27023934227119_2_alg».proof.Proof.Gen.ReferenceIdeal.Read
import proofs.«129920_j27023934227119_2_alg».proof.Proof.Algebra
import proofs.«129920_j27023934227119_2_alg».proof.Proof.KRun
import proofs.«129920_j27023934227119_2_alg».proof.Proof.RefIs
import proofs.«129920_j27023934227119_2_alg».proof.Proof.Finite
import Idealize.ShloMosaic.Adequacy
import Idealize.ShloMosaic.Init

noncomputable section

namespace Cert.Proof

open Idealize.ShloMosaic Idealize.SL.Sem Cert.LoRA

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, run from memories that agree on the arguments, end with the kernel's function of the arguments
    in their result buffers: the kernel's own run says so, and the reference's function equals it on real entries. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.RunV.result_eq m ρ c), (h c).2⟩)
      (Cert.KernelIdeal.RunV.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hW, hb, hA, hB⟩ := Cert.Pre_finite_inputs.Finite.all_real _ _ _ _ _ (hpre c)
    rw [Cert.ReferenceIdeal.Read.val_main_v8_eq, (hagree c).1, (hagree c).2.1, (hagree c).2.2.1, (hagree c).2.2.2.1, (hagree c).2.2.2.2,
      Cert.ReferenceIdeal.RefValue.ref_eq]
    exact (kernelOut_eq_refOut _ _ _ _ _ hx hW hb hA hB).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
